-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x1x2048x2048 1) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i1⟩
  | .hbm, ⟨4, _⟩ => ⟨S4x1x2048x2048, .i32⟩
  | .hbm, ⟨5, _⟩ => ⟨S4x16x2048x64, .f32⟩
  | .hbm, ⟨6, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x1x2048x2048.size a
  hwx0_3 : ∀ i : grid0.Coords, EltTy.bits .i32 = 32 ∨ (Rect.block (s := S4x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i1⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x16x2048x2048, .i1⟩
  | .hbm, ⟨10, _⟩ => ⟨S4x16x2048x2048, .f32⟩
  | .hbm, ⟨11, _⟩ => ⟨S4x16x2048x2048, .f32⟩
  | .hbm, ⟨12, _⟩ => ⟨S_, .f32⟩
  | .hbm, ⟨13, _⟩ => ⟨S4x16x2048, .f32⟩
  | .hbm, ⟨14, _⟩ => ⟨S_, .f32⟩
  | .hbm, ⟨15, _⟩ => ⟨S4x16x2048, .f32⟩
  | .hbm, ⟨16, _⟩ => ⟨S4x16x2048, .f32⟩
  | .hbm, ⟨17, _⟩ => ⟨S4x16x2048x1, .f32⟩
  | .hbm, ⟨18, _⟩ => ⟨S4x16x2048x2048, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnSpec.lean ====
/-
  The specification: masked, scaled dot-product attention over f32[4, 16, 2048, 64] queries, keys and values and a
  boolean mask [4, 1, 2048, 2048] shared by the sixteen heads, as two functions of the argument arrays, index by index.

  For a batch b, head h and query row q the LOGIT against key row k is the contraction over the 64 features of the
  query entry times 2⁻³ with the key entry — or, where the mask holds, one fixed constant instead.  The row's
  PROBABILITIES are its softmax: each logit less the row's maximum, exponentiated, over the sum of those exponentials
  along the row.  The OUTPUT row is the probabilities contracted with the value rows over the 2048 keys.
  The maximum is a fold of `max` from the constant the programs start it at; no property of that constant is used.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Queries, keys, values and the output: [batch, head, row, feature]. -/
abbrev SQ : Shape := ⟨4, ![4, 16, 2048, 64]⟩
/-- The mask: [batch, 1, query row, key row]. -/
abbrev SM : Shape := ⟨4, ![4, 1, 2048, 2048]⟩
/-- The probabilities: [batch, head, query row, key row]. -/
abbrev SP : Shape := ⟨4, ![4, 16, 2048, 2048]⟩

/-- The constant a masked logit is replaced by. -/
abbrev maskFill : EReal := Ideal.ofBits .f32 0xAEDBE6FF#32
/-- The value the running maximum of a row starts from. -/
abbrev maxInit : EReal := Ideal.ofBits .f32 0xFF800000#32
/-- The factor multiplied into each query entry. -/
abbrev qScale : EReal := Ideal.ofBits .f32 0x3E000000#32

/-- The maximum of a row: `max` folded over its entries from the starting value. -/
def rowMax {n : ℕ} (s : Fin n → EReal) : EReal := (Finset.univ : Finset (Fin n)).fold max maxInit s

/-- The softmax of a row of logits, at entry `k`. -/
def rowSoftmax {n : ℕ} (s : Fin n → EReal) (k : Fin n) : EReal :=
  Ideal.div (Ideal.exp (s k - rowMax s)) (∑ k' : Fin n, Ideal.exp (s k' - rowMax s))

/-- The logit of query row `q` against key row `k` in batch `b`, head `h`. -/
def logit (Q K : SQ.Idx → EReal) (M : SM.Idx → BitVec 1) (b : Fin 4) (h : Fin 16) (q k : Fin 2048) : EReal :=
  Scalar.select (M (ix4 b (0 : Fin 1) q k)) maskFill (∑ d : Fin 64, (Q (ix4 b h q d) * qScale) * K (ix4 b h k d))

/-- The probabilities: the softmax of each row of logits. -/
def probs (Q K : SQ.Idx → EReal) (M : SM.Idx → BitVec 1) (i : SP.Idx) : EReal :=
  rowSoftmax (fun k => logit Q K M (i 0) (i 1) (i 2) k) (i 3)

/-- The output: each row of probabilities contracted with the value rows. -/
def attnOut (Q K V : SQ.Idx → EReal) (M : SM.Idx → BitVec 1) (i : SQ.Idx) : EReal :=
  ∑ k : Fin 2048, probs Q K M (ix4 (i 0) (i 1) (i 2) k) * V (ix4 (i 0) (i 1) k (i 3))

end Cert.Attn

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.BlockSoftmax.lean ====
/-
  The softmax the body applies to a [512, 2048] block of logits, read at an index.

  The body takes each row's maximum (a reduction over the 2048 columns started at a fixed constant), re-lays the 512 maxima as
  a column and broadcasts it across the row, subtracts, exponentiates, sums each row the same way, and divides.  Entry
  `(p, c)` of the result therefore depends on row `p` of the logits alone, and is the softmax of that row at `c`.
-/
import proofs.«139944_j77094662963310_2_alg».proof.Proof.Gen.KernelIdeal
import proofs.«139944_j77094662963310_2_alg».proof.Proof.AttnSpec
import proofs.«139944_j77094662963310_2_alg».proof.Proof.LibBroadcast
import Idealize.ShloMosaic.Lib.ValueIdx
import Idealize.ShloMosaic.PureOps.Ideal.Laws

noncomputable section

namespace Cert.Attn.Block

open Idealize.ShloMosaic Idealize.ShloMosaic.ValueIdx Cert.KernelIdeal Cert.KernelIdeal.Facts₀ Cert.Layout

/-- Each row's maximum, as a block constant along the rows. -/
def blockMax (s : FVec Ideal S512x2048 .f32) : FVec Ideal S512x2048 .f32 :=
  broadcastTo S512x2048 (shapeCast S512x1 (multiReduction .maximumf [1] S512 s 0xFF800000#32 reduces_S512x2048_S512 (.inl rfl) rfl)
    shapeCasts_S512_S512x1) broadcasts_S512x1_S512x2048

/-- The exponentials of the logits less their row's maximum. -/
def blockExp (s : FVec Ideal S512x2048 .f32) : FVec Ideal S512x2048 .f32 := exp (subf s (blockMax s))

/-- Each row's sum, as a block constant along the rows. -/
def blockSum (e : FVec Ideal S512x2048 .f32) : FVec Ideal S512x2048 .f32 :=
  broadcastTo S512x2048 (shapeCast S512x1 (multiReduction .add [1] S512 e 0x00000000#32 reduces_S512x2048_S512 (.inl rfl) rfl)
    shapeCasts_S512_S512x1) broadcasts_S512x1_S512x2048

/-- The block's softmax along its rows. -/
def blockSoftmax (s : FVec Ideal S512x2048 .f32) : FVec Ideal S512x2048 .f32 := divf (blockExp s) (blockSum (blockExp s))

/-- The index of row `p` with the column `k` put back is `(p, k)`. -/
theorem lift_row (p : Fin 512) (k : Fin 2048) : reduces_S512x2048_S512.lift (ix1 p) k = ix2 p k :=
  funext fun a => Fin.ext (by match a with | ⟨0, _⟩ => rfl | ⟨1, _⟩ => rfl)

theorem blockMax_apply (s : FVec Ideal S512x2048 .f32) (p : Fin 512) (c : Fin 2048) :
    blockMax s (ix2 p c) = rowMax (fun k : Fin 2048 => s (ix2 p k)) := by
  unfold blockMax
  refine (broadcastTo_a1_ab_apply _ broadcasts_S512x1_S512x2048 p c).trans ?_
  refine (shapeCast_col_apply _ shapeCasts_S512_S512x1 p).trans ?_
  refine (Ideal.multiReduction_maximumf_single s 0xFF800000#32 reduces_S512x2048_S512 (.inl rfl) rfl (ix1 p)).trans ?_
  show (Finset.univ : Finset (Fin 2048)).fold max maxInit (fun k => s (reduces_S512x2048_S512.lift (ix1 p) k)) = _
  unfold rowMax
  exact congrArg (fun f => (Finset.univ : Finset (Fin 2048)).fold max maxInit f) (funext fun k => congrArg s (lift_row p k))

theorem blockExp_apply (s : FVec Ideal S512x2048 .f32) (p : Fin 512) (c : Fin 2048) :
    blockExp s (ix2 p c) = Ideal.exp (s (ix2 p c) - rowMax (fun k : Fin 2048 => s (ix2 p k))) := by
  show Ideal.exp (s (ix2 p c) - blockMax s (ix2 p c)) = _
  rw [blockMax_apply]

theorem blockSum_apply (e : FVec Ideal S512x2048 .f32) (p : Fin 512) (c : Fin 2048) :
    blockSum e (ix2 p c) = ∑ k : Fin 2048, e (ix2 p k) := by
  unfold blockSum
  refine (broadcastTo_a1_ab_apply _ broadcasts_S512x1_S512x2048 p c).trans ?_
  refine (shapeCast_col_apply _ shapeCasts_S512_S512x1 p).trans ?_
  refine (Ideal.multiReduction_add_single e 0x00000000#32 reduces_S512x2048_S512 (.inl rfl) rfl (ix1 p)).trans ?_
  show ∑ k : Fin 2048, e (reduces_S512x2048_S512.lift (ix1 p) k) = _
  exact Finset.sum_congr rfl fun k _ => congrArg e (lift_row p k)

/-- Entry `(p, c)` of the block's softmax is the softmax of row `p` at `c`. -/
theorem blockSoftmax_apply (s : FVec Ideal S512x2048 .f32) (p : Fin 512) (c : Fin 2048) :
    blockSoftmax s (ix2 p c) = rowSoftmax (fun k : Fin 2048 => s (ix2 p k)) c := by
  show Ideal.div (blockExp s (ix2 p c)) (blockSum (blockExp s) (ix2 p c)) = _
  rw [blockSum_apply, blockExp_apply]
  unfold rowSoftmax
  exact congrArg (Ideal.div _) (Finset.sum_congr rfl fun k _ => blockExp_apply s p k)

end Cert.Attn.Block

end
-- ==== Proof.LibUnitAxes.lean ====
/-
  A matrix carried with two leading axes of extent one, and a matrix transposed, read at an index.

  An `[1, 1, a, b]` array re-laid as `[a, b]` has at `(p, c)` the entry `(0, 0, p, c)`, and the other way round; the
  row-major position of `(0, 0, p, c)` among `1 · 1 · a · b` entries is that of `(p, c)` among `a · b`.
  The transpose of an `[a, b]` matrix has at `(p, c)` the entry `(c, p)`.
-/
import Idealize.ShloMosaic.Lib.Pipeline.Value
import Idealize.ShloMosaic.Lib.ValueIdx

noncomputable section

namespace Cert.Layout

open Idealize.ShloMosaic Idealize.ShloMosaic.ValueIdx

variable {α : Type}

/-- Dropping two leading unit axes: entry `(p, c)` of the matrix is entry `(0, 0, p, c)` of the operand. -/
theorem shapeCast_11ab_ab_apply {a b : ℕ} (v : (⟨4, ![1, 1, a, b]⟩ : Shape).Idx → α)
    (h : (⟨4, ![1, 1, a, b]⟩ : Shape).ShapeCasts ⟨2, ![a, b]⟩) (p : Fin a) (c : Fin b) :
    shapeCast (⟨2, ![a, b]⟩ : Shape) v h (ix2 p c) = v (ix4 (0 : Fin 1) (0 : Fin 1) p c) := by
  refine shapeCast_apply v h (ix2 p c) (ix4 (0 : Fin 1) (0 : Fin 1) p c) ?_
  rw [Shape.rowMajor_val_four, Shape.rowMajor_val_two]
  show ((0 * 1 + 0) * a + p.val) * b + c.val = p.val * b + c.val
  simp

/-- Adding two leading unit axes: entry `(0, 0, p, c)` of the result is entry `(p, c)` of the matrix. -/
theorem shapeCast_ab_11ab_apply {a b : ℕ} (v : (⟨2, ![a, b]⟩ : Shape).Idx → α)
    (h : (⟨2, ![a, b]⟩ : Shape).ShapeCasts ⟨4, ![1, 1, a, b]⟩) (p : Fin a) (c : Fin b) :
    shapeCast (⟨4, ![1, 1, a, b]⟩ : Shape) v h (ix4 (0 : Fin 1) (0 : Fin 1) p c) = v (ix2 p c) := by
  refine shapeCast_apply v h (ix4 (0 : Fin 1) (0 : Fin 1) p c) (ix2 p c) ?_
  rw [Shape.rowMajor_val_four, Shape.rowMajor_val_two]
  show p.val * b + c.val = ((0 * 1 + 0) * a + p.val) * b + c.val
  simp

/-- The transpose of a matrix: entry `(p, c)` is entry `(c, p)` of the operand. -/
theorem transpose_ab_apply {a b : ℕ} (v : (⟨2, ![a, b]⟩ : Shape).Idx → α)
    (h : (⟨2, ![a, b]⟩ : Shape).Transposes [1, 0] ⟨2, ![b, a]⟩) (p : Fin b) (c : Fin a) :
    transpose (⟨2, ![b, a]⟩ : Shape) [1, 0] v h (ix2 p c) = v (ix2 c p) := by
  refine transpose_apply [1, 0] v h (ix2 p c) (ix2 c p) fun ax => ?_
  match ax with
  | ⟨0, _⟩ => rfl
  | ⟨1, _⟩ => rfl

end Cert.Layout

end
-- ==== Proof.BlockProducts.lean ====
/-
  The body's two matrix products, read at an index.

  Both contract the second axis of the left operand with the first axis of the right operand into a zero accumulator, so at
  the exact values entry `(p, c)` is the plain sum over that axis of the products of row `p` and column `c`:
  the queries against the transposed keys over the 64 features, and the probabilities against the values over the 2048 keys.
-/
import proofs.«139944_j77094662963310_2_alg».proof.Proof.Gen.KernelIdeal
import Idealize.ShloMosaic.Lib.ValueIdx
import Idealize.ShloMosaic.PureOps.Ideal.Laws

noncomputable section

namespace Cert.Attn.Block

open Idealize.ShloMosaic Idealize.ShloMosaic.ValueIdx Cert.KernelIdeal Cert.KernelIdeal.Facts₀

/-! ### Queries against transposed keys: [512, 64] · [64, 2048] -/

theorem qk_lhs_row (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem qk_lhs_contr (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem qk_rhs_contr (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem qk_rhs_col (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- Entry `(p, c)` of the product is the sum over the contracted axis of row `p` of the left operand times column `c` of the right. -/
theorem qk_apply {φ₁ φ₂ : FTy} (l : FVec Ideal S512x64 φ₁) (r : FVec Ideal S64x2048 φ₂) (p : Fin 512) (c : Fin 2048) :
    matmul dot_S512x64_S64x2048_S512x2048_1_0_0_1_n_n none l r (constant (F := Ideal) S512x2048 .f32 0x00000000#32) (ix2 p c)
      = ∑ k : Fin 64, l (ix2 p k) * r (ix2 k c) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p c) ((contrEquiv1 dot_S512x64_S64x2048_S512x2048_1_0_0_1_n_n 64 rfl rfl).symm k) = ix2 p k := funext fun a => Fin.ext (by
    match a with
    | ⟨0, _⟩ => exact qk_lhs_row _ _
    | ⟨1, _⟩ => exact (qk_lhs_contr _ _).trans hk)
  have er : dot_S512x64_S64x2048_S512x2048_1_0_0_1_n_n.rhsIdx (ix2 p c) ((contrEquiv1 dot_S512x64_S64x2048_S512x2048_1_0_0_1_n_n 64 rfl rfl).symm k) = ix2 k c := funext fun a => Fin.ext (by
    match a with
    | ⟨0, _⟩ => exact (qk_rhs_contr _ _).trans hk
    | ⟨1, _⟩ => exact qk_rhs_col _ _)
  rw [el, er]

/-! ### Probabilities against values: [512, 2048] · [2048, 64] -/

theorem pv_lhs_row (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_contr (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs_contr (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs_col (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Entry `(p, c)` of the product is the sum over the contracted axis of row `p` of the left operand times column `c` of the right. -/
theorem pv_apply {φ₁ φ₂ : FTy} (l : FVec Ideal S512x2048 φ₁) (r : FVec Ideal S2048x64 φ₂) (p : Fin 512) (c : Fin 64) :
    matmul dot_S512x2048_S2048x64_S512x64_1_0_0_1_n_n none l r (constant (F := Ideal) S512x64 .f32 0x00000000#32) (ix2 p c)
      = ∑ k : Fin 2048, l (ix2 p k) * r (ix2 k c) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p c) ((contrEquiv1 dot_S512x2048_S2048x64_S512x64_1_0_0_1_n_n 2048 rfl rfl).symm k) = ix2 p k := funext fun a => Fin.ext (by
    match a with
    | ⟨0, _⟩ => exact pv_lhs_row _ _
    | ⟨1, _⟩ => exact (pv_lhs_contr _ _).trans hk)
  have er : dot_S512x2048_S2048x64_S512x64_1_0_0_1_n_n.rhsIdx (ix2 p c) ((contrEquiv1 dot_S512x2048_S2048x64_S512x64_1_0_0_1_n_n 2048 rfl rfl).symm k) = ix2 k c := funext fun a => Fin.ext (by
    match a with
    | ⟨0, _⟩ => exact (pv_rhs_contr _ _).trans hk
    | ⟨1, _⟩ => exact pv_rhs_col _ _)
  rw [el, er]

end Cert.Attn.Block

end
-- ==== Proof.BlockLogits.lean ====
/-
  The logits of one block, read at an index.

  The body is handed a [1, 1, 512, 64] block of queries, a [1, 1, 2048, 64] block of keys and a [1, 1, 512, 2048] block of
  the mask as 32-bit words.  It drops the unit axes, multiplies every query entry by the constant 2⁻³, transposes the keys
  and contracts over the 64 features; where the mask's word is not zero the constant fill replaces the contraction.  So
  entry `(p, c)` of the logits depends on query row `p`, key row `c` and the mask's entry `(p, c)`.
-/
import proofs.«139944_j77094662963310_2_alg».proof.Proof.Gen.KernelIdeal
import proofs.«139944_j77094662963310_2_alg».proof.Proof.AttnSpec
import proofs.«139944_j77094662963310_2_alg».proof.Proof.LibUnitAxes
import proofs.«139944_j77094662963310_2_alg».proof.Proof.BlockProducts
import Idealize.ShloMosaic.Lib.ValueIdx
import Idealize.ShloMosaic.PureOps.Ideal.Laws

noncomputable section

namespace Cert.Attn.Block

open Idealize.ShloMosaic Idealize.ShloMosaic.ValueIdx Cert.KernelIdeal Cert.KernelIdeal.Facts₀ Cert.Layout

/-- The block of logits the body forms from a block of queries, a block of keys and a block of mask words. -/
def blockLogits (P0 : Vec Ideal S1x1x512x64 .f32) (P1 : Vec Ideal S1x1x2048x64 .f32) (P2 : Vec Ideal S1x1x512x2048 .i32) :
    FVec Ideal S512x2048 .f32 :=
  select (cmpi .ne (shapeCast S512x2048 P2 shapeCasts_S1x1x512x2048_S512x2048) (constantI S512x2048 32 0#32))
    (broadcast S512x2048 (Scalar.ofBits (F := Ideal) .f32 0xAEDBE6FF#32))
    (matmul dot_S512x64_S64x2048_S512x2048_1_0_0_1_n_n none
      (truncf .bf16 (mulf (shapeCast S512x64 P0 shapeCasts_S1x1x512x64_S512x64) (broadcast S512x64 (Scalar.ofBits (F := Ideal) .f32 0x3E000000#32))) bitsLt_bf16_f32)
      (transpose S64x2048 [1, 0] (truncf .bf16 (shapeCast S2048x64 P1 shapeCasts_S1x1x2048x64_S2048x64) bitsLt_bf16_f32) transposes_S2048x64_p1_0_S64x2048)
      (constant (F := Ideal) S512x2048 .f32 0x00000000#32))

/-- Entry `(p, c)` of the logits: the fill where the mask's word at `(p, c)` is not zero, else the contraction of the scaled
    query row `p` with key row `c`. -/
theorem blockLogits_apply (P0 : Vec Ideal S1x1x512x64 .f32) (P1 : Vec Ideal S1x1x2048x64 .f32) (P2 : Vec Ideal S1x1x512x2048 .i32)
    (p : Fin 512) (c : Fin 2048) :
    blockLogits P0 P1 P2 (ix2 p c)
      = Scalar.select (IntOp.cmpi .ne (P2 (ix4 (0 : Fin 1) (0 : Fin 1) p c)) 0#32) maskFill
          (∑ d : Fin 64, (P0 (ix4 (0 : Fin 1) (0 : Fin 1) p d) * qScale) * P1 (ix4 (0 : Fin 1) (0 : Fin 1) c d)) := by
  unfold blockLogits
  show Scalar.select (IntOp.cmpi .ne (shapeCast S512x2048 P2 shapeCasts_S1x1x512x2048_S512x2048 (ix2 p c)) 0#32) maskFill
      (matmul dot_S512x64_S64x2048_S512x2048_1_0_0_1_n_n none _ _ (constant (F := Ideal) S512x2048 .f32 0x00000000#32) (ix2 p c)) = _
  rw [shapeCast_11ab_ab_apply, qk_apply]
  refine congrArg (Scalar.select _ maskFill) (Finset.sum_congr rfl fun d _ => ?_)
  rw [transpose_ab_apply]
  show (shapeCast S512x64 P0 shapeCasts_S1x1x512x64_S512x64 (ix2 p d) * qScale)
      * shapeCast S2048x64 P1 shapeCasts_S1x1x2048x64_S2048x64 (ix2 c d) = _
  rw [shapeCast_11ab_ab_apply, shapeCast_11ab_ab_apply]

end Cert.Attn.Block

end
-- ==== Proof.BlockPayloads.lean ====
/-
  What one grid point computes, read at an index.

  The probabilities block is the softmax along the rows of the block's logits, so entry `(p, c)` is the softmax of the
  row of logits of query row `p`, at key `c`.  The output block is the probabilities block times the block of values, so
  entry `(p, d)` is the sum over the 2048 keys of the probability of key `k` times entry `(k, d)` of the values.
-/
import proofs.«139944_j77094662963310_2_alg».proof.Proof.Gen.KernelIdeal.Skeleton
import proofs.«139944_j77094662963310_2_alg».proof.Proof.BlockSoftmax
import proofs.«139944_j77094662963310_2_alg».proof.Proof.BlockLogits

noncomputable section

namespace Cert.Attn.Block

open Idealize.ShloMosaic Idealize.ShloMosaic.ValueIdx Cert.KernelIdeal Cert.KernelIdeal.Facts₀ Cert.Layout

/-- The logit of query row `p` against key row `k`, from the blocks a grid point is handed. -/
def logitAt (P0 : Vec Ideal S1x1x512x64 .f32) (P1 : Vec Ideal S1x1x2048x64 .f32) (P2 : Vec Ideal S1x1x512x2048 .i32)
    (p : Fin 512) (k : Fin 2048) : EReal :=
  Scalar.select (IntOp.cmpi .ne (P2 (ix4 (0 : Fin 1) (0 : Fin 1) p k)) 0#32) maskFill
    (∑ d : Fin 64, (P0 (ix4 (0 : Fin 1) (0 : Fin 1) p d) * qScale) * P1 (ix4 (0 : Fin 1) (0 : Fin 1) k d))

/-- The probabilities the body computes are the block softmax of the block logits. -/
theorem probs_payload_eq (P0 : Vec Ideal S1x1x512x64 .f32) (P1 : Vec Ideal S1x1x2048x64 .f32) (P2 : Vec Ideal S1x1x512x2048 .i32) :
    Gen.k0_pay2 P0 P1 P2 = blockSoftmax (blockLogits P0 P1 P2) := rfl

/-- Entry `(p, c)` of the probabilities: the softmax of query row `p`'s logits, at key `c`. -/
theorem probs_payload_apply (P0 : Vec Ideal S1x1x512x64 .f32) (P1 : Vec Ideal S1x1x2048x64 .f32) (P2 : Vec Ideal S1x1x512x2048 .i32)
    (p : Fin 512) (c : Fin 2048) :
    Gen.k0_pay2 P0 P1 P2 (ix2 p c) = rowSoftmax (fun k : Fin 2048 => logitAt P0 P1 P2 p k) c := by
  rw [probs_payload_eq, blockSoftmax_apply]
  exact congrArg (fun s : Fin 2048 → EReal => rowSoftmax s c) (funext fun k => blockLogits_apply P0 P1 P2 p k)

/-- Entry `(p, d)` of the output block: the probabilities of query row `p` contracted with column `d` of the values. -/
theorem out_payload_apply (P0 : Vec Ideal S1x1x512x64 .f32) (P1 : Vec Ideal S1x1x2048x64 .f32) (P2 : Vec Ideal S1x1x512x2048 .i32)
    (P3 : Vec Ideal S1x1x2048x64 .f32) (p : Fin 512) (d : Fin 64) :
    Gen.k0_pay1 (Gen.k0_pay4 P0 P1 P2) (Gen.k0_pay5 P3) (ix4 (0 : Fin 1) (0 : Fin 1) p d)
      = ∑ k : Fin 2048, Gen.k0_pay2 P0 P1 P2 (ix2 p k) * P3 (ix4 (0 : Fin 1) (0 : Fin 1) k d) := by
  show shapeCast S1x1x512x64 (matmul dot_S512x2048_S2048x64_S512x64_1_0_0_1_n_n none (Gen.k0_pay4 P0 P1 P2)
      (truncf (F := Ideal) .bf16 (Gen.k0_pay5 P3) bitsLt_bf16_f32) (constant (F := Ideal) S512x64 .f32 0x00000000#32))
      shapeCasts_S512x64_S1x1x512x64 (ix4 (0 : Fin 1) (0 : Fin 1) p d) = _
  refine (shapeCast_ab_11ab_apply _ shapeCasts_S512x64_S1x1x512x64 p d).trans ?_
  refine (pv_apply _ _ p d).trans ?_
  refine Finset.sum_congr rfl fun k _ => ?_
  show Gen.k0_pay2 P0 P1 P2 (ix2 p k) * shapeCast S2048x64 P3 shapeCasts_S1x1x2048x64_S2048x64 (ix2 k d) = _
  rw [shapeCast_11ab_ab_apply]

end Cert.Attn.Block

end
-- ==== Proof.MaskWords.lean ====
/-
  The mask as 32-bit words.

  The kernel is handed the boolean mask widened to 32-bit words, and tests each word against zero; the specification tests
  the bit itself.  A bit widened with zeros is a nonzero word exactly when the bit is set, so the logits, the probabilities
  and the output stated over the widened mask are the specification's.
-/
import proofs.«139944_j77094662963310_2_alg».proof.Proof.AttnSpec

noncomputable section

namespace Cert.Attn

open Idealize.ShloMosaic Idealize.ShloMosaic.ValueIdx

/-- A bit widened with zeros differs from the zero word exactly when the bit is set. -/
theorem cmpi_ne_zero_setWidth : ∀ b : BitVec 1, IntOp.cmpi .ne (b.setWidth 32) 0#32 = b := by decide

/-- The logit, testing a mask word against zero. -/
def logitW (Q K : SQ.Idx → EReal) (W : SM.Idx → BitVec 32) (b : Fin 4) (h : Fin 16) (q k : Fin 2048) : EReal :=
  Scalar.select (IntOp.cmpi .ne (W (ix4 b (0 : Fin 1) q k)) 0#32) maskFill
    (∑ d : Fin 64, (Q (ix4 b h q d) * qScale) * K (ix4 b h k d))

/-- The probabilities over mask words. -/
def probsW (Q K : SQ.Idx → EReal) (W : SM.Idx → BitVec 32) (i : SP.Idx) : EReal :=
  rowSoftmax (fun k => logitW Q K W (i 0) (i 1) (i 2) k) (i 3)

/-- The output over mask words. -/
def attnOutW (Q K V : SQ.Idx → EReal) (W : SM.Idx → BitVec 32) (i : SQ.Idx) : EReal :=
  ∑ k : Fin 2048, probsW Q K W (ix4 (i 0) (i 1) (i 2) k) * V (ix4 (i 0) (i 1) k (i 3))

theorem logitW_setWidth (Q K : SQ.Idx → EReal) (M : SM.Idx → BitVec 1) (b : Fin 4) (h : Fin 16) (q k : Fin 2048) :
    logitW Q K (fun i => (M i).setWidth 32) b h q k = logit Q K M b h q k := by
  unfold logitW logit
  rw [cmpi_ne_zero_setWidth]

theorem probsW_setWidth (Q K : SQ.Idx → EReal) (M : SM.Idx → BitVec 1) :
    probsW Q K (fun i => (M i).setWidth 32) = probs Q K M := by
  funext i
  unfold probsW probs
  exact congrArg (fun s : Fin 2048 → EReal => rowSoftmax s (i 3)) (funext fun k => logitW_setWidth Q K M (i 0) (i 1) (i 2) k)

theorem attnOutW_setWidth (Q K V : SQ.Idx → EReal) (M : SM.Idx → BitVec 1) :
    attnOutW Q K V (fun i => (M i).setWidth 32) = attnOut Q K V M := by
  funext i
  unfold attnOutW attnOut
  rw [probsW_setWidth]

end Cert.Attn

end
-- ==== Proof.KernelArrays.lean ====
/-
  From what each grid point computes to the specification, block by block.

  Grid point (b, h, j) is handed rows 512·j … 512·j + 511 of the queries of batch b and head h, all 2048 key rows and value
  rows of that batch and head, and the same 512 rows of the mask of batch b; it writes the same 512 rows of the
  probabilities and of the output.  Every entry it writes is the specification's entry at the array index the block entry
  sits at, because a row of logits depends only on its own query row, on all the key rows and on its own mask row, all
  of which the point holds whole.
-/
import proofs.«139944_j77094662963310_2_alg».proof.Proof.Gen.KernelIdeal.Value
import proofs.«139944_j77094662963310_2_alg».proof.Proof.BlockPayloads
import proofs.«139944_j77094662963310_2_alg».proof.Proof.MaskWords
import Idealize.ShloMosaic.Lib.Pipeline.Value

noncomputable section

namespace Cert.Attn.Arrays

open Idealize.ShloMosaic Idealize.ShloMosaic.TcCoe Idealize.ShloMosaic.ValueIdx Idealize.SL.Sem
open Cert.KernelIdeal Cert.KernelIdeal.Gen Cert.Attn.Block
open Idealize.ShloMosaic.Pipeline (Dat)

variable (m : (ℓ : Loc nD τ sig) → Buf (Elt Ideal) ℓ)

theorem off_zero : (![0, 0, 0, 0] : Fin 4 → Nat) = fun _ => 0 := funext fun a => by fin_cases a <;> rfl

/-- The six windows' block positions at a grid point: queries, probabilities and output move together over batch, head and
    row block; keys and values over batch and head only; the mask over batch and row block only. -/
theorem block_positions : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = win0_5.index t (2 : Fin 4) ∧ win0_3.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (3 : Fin 4) = 0
    ∧ win0_5.index t (0 : Fin 4) ≤ 3 ∧ win0_5.index t (1 : Fin 4) ≤ 15 ∧ win0_5.index t (2 : Fin 4) ≤ 3 :=
  (by decide +kernel : ∀ t : Fin grid0.N, _)

/-- The batch, the head and the row block of a grid point are within the arrays' extents. -/
theorem block_bounds : ∀ t : Fin cfg0.N,
    win0_5.index t (0 : Fin 4) < 4 ∧ win0_5.index t (1 : Fin 4) < 16 ∧ win0_5.index t (2 : Fin 4) < 4 :=
  (by decide +kernel : ∀ t : Fin grid0.N, _)

/-- The batch a grid point works on. -/
def batchOf (t : Fin cfg0.N) : Fin 4 := ⟨win0_5.index t (0 : Fin 4), (block_bounds t).1⟩
/-- The head a grid point works on. -/
def headOf (t : Fin cfg0.N) : Fin 16 := ⟨win0_5.index t (1 : Fin 4), (block_bounds t).2.1⟩
/-- The array row that row `p` of a grid point's blocks is. -/
def rowOf (t : Fin cfg0.N) (p : Fin 512) : Fin 2048 :=
  ⟨win0_5.index t (2 : Fin 4) * 512 + p.val, by have := (block_bounds t).2.2; have := p.isLt; omega⟩

/-- A block index of a [1, 1, a, b] block is (0, 0, p, c). -/
theorem block_coords {a b : ℕ} (y : (⟨4, ![1, 1, a, b]⟩ : Shape).Idx) :
    ∃ (p : Fin a) (c : Fin b), y = ix4 (0 : Fin 1) (0 : Fin 1) p c :=
  ⟨y 2, y 3, funext fun ax => Fin.ext (by
    match ax with
    | ⟨0, _⟩ => have h0 : (y 0).val < 1 := (y 0).isLt; show (y 0).val = 0; omega
    | ⟨1, _⟩ => have h1 : (y 1).val < 1 := (y 1).isLt; show (y 1).val = 0; omega
    | ⟨2, _⟩ => rfl
    | ⟨3, _⟩ => rfl)⟩

/-! ## Where a block entry sits in its array -/

/-- Entry (p, k) of the point's probabilities block is the array's entry (batch, head, row, k). -/
theorem probs_emb (t : Fin cfg0.N) (p : Fin 512) (k : Fin 2048) :
    ((cfg0.win 5).blk t).view.emb (ix4 (0 : Fin 1) (0 : Fin 1) p k) = ix4 (batchOf t) (headOf t) (rowOf t p) k := by
  obtain ⟨e00, e01, e02, e03, e10, e11, e12, e13, e20, e21, e22, e23, e30, e31, e32, e33, e40, e41, e42, e43, e53, b0, b1, b2⟩ := block_positions t
  funext a; apply Fin.ext
  match a with
  | ⟨0, _⟩ => show win0_5.index t (0 : Fin 4) * 1 + 1 * 0 = win0_5.index t (0 : Fin 4); omega
  | ⟨1, _⟩ => show win0_5.index t (1 : Fin 4) * 1 + 1 * 0 = win0_5.index t (1 : Fin 4); omega
  | ⟨2, _⟩ => show win0_5.index t (2 : Fin 4) * 512 + 1 * p.val = win0_5.index t (2 : Fin 4) * 512 + p.val; omega
  | ⟨3, _⟩ => show win0_5.index t (3 : Fin 4) * 2048 + 1 * k.val = k.val; omega

/-- Entry (p, d) of the point's output block is the array's entry (batch, head, row, d). -/
theorem out_emb (t : Fin cfg0.N) (p : Fin 512) (d : Fin 64) :
    ((cfg0.win 4).blk t).view.emb (ix4 (0 : Fin 1) (0 : Fin 1) p d) = ix4 (batchOf t) (headOf t) (rowOf t p) d := by
  obtain ⟨e00, e01, e02, e03, e10, e11, e12, e13, e20, e21, e22, e23, e30, e31, e32, e33, e40, e41, e42, e43, e53, b0, b1, b2⟩ := block_positions t
  funext a; apply Fin.ext
  match a with
  | ⟨0, _⟩ => show win0_4.index t (0 : Fin 4) * 1 + 1 * 0 = win0_5.index t (0 : Fin 4); omega
  | ⟨1, _⟩ => show win0_4.index t (1 : Fin 4) * 1 + 1 * 0 = win0_5.index t (1 : Fin 4); omega
  | ⟨2, _⟩ => show win0_4.index t (2 : Fin 4) * 512 + 1 * p.val = win0_5.index t (2 : Fin 4) * 512 + p.val; omega
  | ⟨3, _⟩ => show win0_4.index t (3 : Fin 4) * 64 + 1 * d.val = d.val; omega

/-- Row `p` of the point's query block is the array's row of that batch and head. -/
theorem q_at (c : Dev nD) (t : Fin cfg0.N) (p : Fin 512) (d : Fin 64) :
    iblk m c 0 t (ix4 (0 : Fin 1) (0 : Fin 1) p d) = V m c main_arg0 (ix4 (batchOf t) (headOf t) (rowOf t p) d) := by
  obtain ⟨e00, e01, e02, e03, e10, e11, e12, e13, e20, e21, e22, e23, e30, e31, e32, e33, e40, e41, e42, e43, e53, b0, b1, b2⟩ := block_positions t
  have he : ((cfg0.win 0).blk t).view.emb (ix4 (0 : Fin 1) (0 : Fin 1) p d) = ix4 (batchOf t) (headOf t) (rowOf t p) d := by
    funext a; apply Fin.ext
    match a with
    | ⟨0, _⟩ => show win0_0.index t (0 : Fin 4) * 1 + 1 * 0 = win0_5.index t (0 : Fin 4); omega
    | ⟨1, _⟩ => show win0_0.index t (1 : Fin 4) * 1 + 1 * 0 = win0_5.index t (1 : Fin 4); omega
    | ⟨2, _⟩ => show win0_0.index t (2 : Fin 4) * 512 + 1 * p.val = win0_5.index t (2 : Fin 4) * 512 + p.val; omega
    | ⟨3, _⟩ => show win0_0.index t (3 : Fin 4) * 64 + 1 * d.val = d.val; omega
  show V m c main_arg0 (((cfg0.win 0).blk t).view.emb (ix4 (0 : Fin 1) (0 : Fin 1) p d)) = _
  rw [he]

/-- The point's key block is all the key rows of that batch and head. -/
theorem k_at (c : Dev nD) (t : Fin cfg0.N) (k : Fin 2048) (d : Fin 64) :
    iblk m c 1 t (ix4 (0 : Fin 1) (0 : Fin 1) k d) = V m c main_arg1 (ix4 (batchOf t) (headOf t) k d) := by
  obtain ⟨e00, e01, e02, e03, e10, e11, e12, e13, e20, e21, e22, e23, e30, e31, e32, e33, e40, e41, e42, e43, e53, b0, b1, b2⟩ := block_positions t
  have he : ((cfg0.win 1).blk t).view.emb (ix4 (0 : Fin 1) (0 : Fin 1) k d) = ix4 (batchOf t) (headOf t) k d := by
    funext a; apply Fin.ext
    match a with
    | ⟨0, _⟩ => show win0_1.index t (0 : Fin 4) * 1 + 1 * 0 = win0_5.index t (0 : Fin 4); omega
    | ⟨1, _⟩ => show win0_1.index t (1 : Fin 4) * 1 + 1 * 0 = win0_5.index t (1 : Fin 4); omega
    | ⟨2, _⟩ => show win0_1.index t (2 : Fin 4) * 2048 + 1 * k.val = k.val; omega
    | ⟨3, _⟩ => show win0_1.index t (3 : Fin 4) * 64 + 1 * d.val = d.val; omega
  show V m c main_arg1 (((cfg0.win 1).blk t).view.emb (ix4 (0 : Fin 1) (0 : Fin 1) k d)) = _
  rw [he]

/-- The point's value block is all the value rows of that batch and head. -/
theorem v_at (c : Dev nD) (t : Fin cfg0.N) (k : Fin 2048) (d : Fin 64) :
    iblk m c 2 t (ix4 (0 : Fin 1) (0 : Fin 1) k d) = V m c main_arg2 (ix4 (batchOf t) (headOf t) k d) := by
  obtain ⟨e00, e01, e02, e03, e10, e11, e12, e13, e20, e21, e22, e23, e30, e31, e32, e33, e40, e41, e42, e43, e53, b0, b1, b2⟩ := block_positions t
  have he : ((cfg0.win 2).blk t).view.emb (ix4 (0 : Fin 1) (0 : Fin 1) k d) = ix4 (batchOf t) (headOf t) k d := by
    funext a; apply Fin.ext
    match a with
    | ⟨0, _⟩ => show win0_2.index t (0 : Fin 4) * 1 + 1 * 0 = win0_5.index t (0 : Fin 4); omega
    | ⟨1, _⟩ => show win0_2.index t (1 : Fin 4) * 1 + 1 * 0 = win0_5.index t (1 : Fin 4); omega
    | ⟨2, _⟩ => show win0_2.index t (2 : Fin 4) * 2048 + 1 * k.val = k.val; omega
    | ⟨3, _⟩ => show win0_2.index t (3 : Fin 4) * 64 + 1 * d.val = d.val; omega
  show V m c main_arg2 (((cfg0.win 2).blk t).view.emb (ix4 (0 : Fin 1) (0 : Fin 1) k d)) = _
  rw [he]

/-- Row `p` of the point's mask block is the mask's row of that batch, whatever the head. -/
theorem w_at (c : Dev nD) (t : Fin cfg0.N) (p : Fin 512) (k : Fin 2048) :
    iblk m c 3 t (ix4 (0 : Fin 1) (0 : Fin 1) p k) = V m c main_v0 (ix4 (batchOf t) (0 : Fin 1) (rowOf t p) k) := by
  obtain ⟨e00, e01, e02, e03, e10, e11, e12, e13, e20, e21, e22, e23, e30, e31, e32, e33, e40, e41, e42, e43, e53, b0, b1, b2⟩ := block_positions t
  have he : ((cfg0.win 3).blk t).view.emb (ix4 (0 : Fin 1) (0 : Fin 1) p k) = ix4 (batchOf t) (0 : Fin 1) (rowOf t p) k := by
    funext a; apply Fin.ext
    match a with
    | ⟨0, _⟩ => show win0_3.index t (0 : Fin 4) * 1 + 1 * 0 = win0_5.index t (0 : Fin 4); omega
    | ⟨1, _⟩ => show win0_3.index t (1 : Fin 4) * 1 + 1 * 0 = 0; omega
    | ⟨2, _⟩ => show win0_3.index t (2 : Fin 4) * 512 + 1 * p.val = win0_5.index t (2 : Fin 4) * 512 + p.val; omega
    | ⟨3, _⟩ => show win0_3.index t (3 : Fin 4) * 2048 + 1 * k.val = k.val; omega
  show V m c main_v0 (((cfg0.win 3).blk t).view.emb (ix4 (0 : Fin 1) (0 : Fin 1) p k)) = _
  rw [he]

/-! ## The point's values are the specification's -/

/-- The logit the point forms for its row `p` against key `k` is the specification's for that batch, head and array row. -/
theorem logit_at (c : Dev nD) (t : Fin cfg0.N) (p : Fin 512) (k : Fin 2048) :
    logitAt (iblk m c 0 t) (iblk m c 1 t) (iblk m c 3 t) p k
      = logitW (V m c main_arg0) (V m c main_arg1) (V m c main_v0) (batchOf t) (headOf t) (rowOf t p) k := by
  unfold logitAt logitW
  rw [w_at m c t p k]
  refine congrArg (Scalar.select _ maskFill) (Finset.sum_congr rfl fun d _ => ?_)
  rw [q_at m c t p d, k_at m c t k d]

/-- Entry (p, k) of the probabilities the point computes is the specification's at (batch, head, row, k). -/
theorem probs_at (c : Dev nD) (t : Fin cfg0.N) (p : Fin 512) (k : Fin 2048) :
    k0_pay2 (iblk m c 0 t) (iblk m c 1 t) (iblk m c 3 t) (ix2 p k)
      = probsW (V m c main_arg0) (V m c main_arg1) (V m c main_v0) (ix4 (batchOf t) (headOf t) (rowOf t p) k) := by
  refine (probs_payload_apply (iblk m c 0 t) (iblk m c 1 t) (iblk m c 3 t) p k).trans ?_
  unfold probsW
  exact congrArg (fun s : Fin 2048 → EReal => rowSoftmax s k) (funext fun k' => logit_at m c t p k')

/-- WHAT POINT `t` WRITES to the probabilities is block `t` of the specification over the arrays as the region finds them. -/
theorem probs_block (c : Dev nD) (t : Fin cfg0.N) :
    (dats m 0 c).flushed 5 t = ((cfg0.win 5).blk t).view.read (Elt Ideal)
      (probsW (V m c main_arg0) (V m c main_arg1) (V m c main_v0)) := by
  rw [Value.flushed5]
  unfold out0_5
  rw [View.canon_unit_zero off_zero]
  simp only [View.ld_unit_zero (S := S1x1x512x64) off_zero, View.ld_unit_zero (S := S1x1x2048x64) off_zero,
    View.ld_unit_zero (S := S1x1x512x2048) off_zero]
  funext y
  obtain ⟨p, k, rfl⟩ := block_coords y
  show k0_pay3 (iblk m c 0 t) (iblk m c 1 t) (iblk m c 3 t) (ix4 (0 : Fin 1) (0 : Fin 1) p k)
    = probsW (V m c main_arg0) (V m c main_arg1) (V m c main_v0) (((cfg0.win 5).blk t).view.emb (ix4 (0 : Fin 1) (0 : Fin 1) p k))
  rw [probs_emb t p k]
  refine (Cert.Layout.shapeCast_ab_11ab_apply (k0_pay2 (iblk m c 0 t) (iblk m c 1 t) (iblk m c 3 t))
    Facts₀.shapeCasts_S512x2048_S1x1x512x2048 p k).trans ?_
  exact probs_at m c t p k

/-- WHAT POINT `t` WRITES to the output is block `t` of the specification over the arrays as the region finds them. -/
theorem out_block (c : Dev nD) (t : Fin cfg0.N) :
    (dats m 0 c).flushed 4 t = ((cfg0.win 4).blk t).view.read (Elt Ideal)
      (attnOutW (V m c main_arg0) (V m c main_arg1) (V m c main_arg2) (V m c main_v0)) := by
  rw [Value.flushed4]
  unfold out0_4
  rw [View.canon_unit_zero off_zero]
  simp only [View.ld_unit_zero (S := S1x1x512x64) off_zero, View.ld_unit_zero (S := S1x1x2048x64) off_zero,
    View.ld_unit_zero (S := S1x1x512x2048) off_zero]
  funext y
  obtain ⟨p, d, rfl⟩ := block_coords y
  show k0_pay1 (k0_pay4 (iblk m c 0 t) (iblk m c 1 t) (iblk m c 3 t)) (k0_pay5 (iblk m c 2 t)) (ix4 (0 : Fin 1) (0 : Fin 1) p d)
    = attnOutW (V m c main_arg0) (V m c main_arg1) (V m c main_arg2) (V m c main_v0) (((cfg0.win 4).blk t).view.emb (ix4 (0 : Fin 1) (0 : Fin 1) p d))
  rw [out_emb t p d]
  refine (out_payload_apply (iblk m c 0 t) (iblk m c 1 t) (iblk m c 3 t) (iblk m c 2 t) p d).trans ?_
  unfold attnOutW
  refine Finset.sum_congr rfl fun k _ => ?_
  rw [v_at m c t k d, probs_at m c t p k]

end Cert.Attn.Arrays

end
-- ==== Proof.KernelRun.lean ====
/-
  The kernel's run ends with both result arrays at the specification.

  Point number t of the 4 · 16 · 4 grid works on batch t / 64, head (t / 4) mod 16 and row block t mod 4, so the array index
  (b, h, r, ·) lies in the block of point 64·b + 4·h + r / 512: the blocks cover both result arrays, and each array ends as
  the one function every block is a piece of.  The mask the region finds is the argument widened to 32-bit words by the one
  host operation before the region; the other arrays it finds are the arguments themselves.
-/
import proofs.«139944_j77094662963310_2_alg».proof.Proof.KernelArrays
import Idealize.ShloMosaic.Lib.StableHlo.Run

noncomputable section

namespace Cert.Attn.Arrays

open Idealize.ShloMosaic Idealize.ShloMosaic.TcCoe Idealize.ShloMosaic.ValueIdx Idealize.SL.Sem
open Cert.KernelIdeal Cert.KernelIdeal.Gen Cert.Attn.Block
open Idealize.ShloMosaic.Pipeline (Dat)

variable (m : (ℓ : Loc nD τ sig) → Buf (Elt Ideal) ℓ) (ρ : Dev nD → PrngReg)

/-- Which block of the probabilities each grid point writes. -/
theorem point_blocks_5 : ∀ t : Fin cfg0.N, win0_5.index t = ![t.val / 64, t.val / 4 % 16, t.val % 4, 0] :=
  (by decide +kernel : ∀ t : Fin grid0.N, _)

/-- Which block of the output each grid point writes. -/
theorem point_blocks_4 : ∀ t : Fin cfg0.N, win0_4.index t = ![t.val / 64, t.val / 4 % 16, t.val % 4, 0] :=
  (by decide +kernel : ∀ t : Fin grid0.N, _)

/-- An index of the array is in point `t`'s block iff each coordinate is in the block's range on its axis. -/
theorem mem_probs_blk (t : Fin cfg0.N) (i : S4x16x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

/-- Every index of the probabilities is in the block of the point its batch, head and row block name. -/
theorem probs_cover (i : S4x16x2048x2048.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 2048 := (i 3).isLt
  have hN : grid0.N = 256 := N_0
  obtain ⟨t, tv⟩ : ∃ t : Fin cfg0.N, t.val = (i 0).val * 64 + (i 1).val * 4 + (i 2).val / 512 :=
    ⟨⟨(i 0).val * 64 + (i 1).val * 4 + (i 2).val / 512, by show _ < grid0.N; omega⟩, rfl⟩
  have ht := point_blocks_5 t
  have q0 : win0_5.index t (0 : Fin 4) = t.val / 64 := congrFun ht 0
  have q1 : win0_5.index t (1 : Fin 4) = t.val / 4 % 16 := congrFun ht 1
  have q2 : win0_5.index t (2 : Fin 4) = t.val % 4 := congrFun ht 2
  have q3 : win0_5.index t (3 : Fin 4) = 0 := congrFun ht 3
  refine ⟨t, flush0_5 t, ?_⟩
  rw [mem_probs_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- An index of the array is in point `t`'s block iff each coordinate is in the block's range on its axis. -/
theorem mem_out_blk (t : Fin cfg0.N) (i : S4x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v1_0).slice (win0_4.rect t)).set ↔ _
  rw [View.set_slice_whole, Rect.mem_set_unit]
  exact Iff.rfl

/-- Every index of the output is in the block of the point its batch, head and row block name. -/
theorem out_cover (i : S4x16x2048x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 64 := (i 3).isLt
  have hN : grid0.N = 256 := N_0
  obtain ⟨t, tv⟩ : ∃ t : Fin cfg0.N, t.val = (i 0).val * 64 + (i 1).val * 4 + (i 2).val / 512 :=
    ⟨⟨(i 0).val * 64 + (i 1).val * 4 + (i 2).val / 512, by show _ < grid0.N; omega⟩, rfl⟩
  have ht := point_blocks_4 t
  have q0 : win0_4.index t (0 : Fin 4) = t.val / 64 := congrFun ht 0
  have q1 : win0_4.index t (1 : Fin 4) = t.val / 4 % 16 := congrFun ht 1
  have q2 : win0_4.index t (2 : Fin 4) = t.val % 4 := congrFun ht 2
  have q3 : win0_4.index t (3 : Fin 4) = 0 := congrFun ht 3
  refine ⟨t, flush0_4 t, ?_⟩
  rw [mem_out_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The mask as the region finds it: the argument, each bit widened to a 32-bit word. -/
theorem mask_words (c : Dev nD) :
    (V m c main_v0 : S4x1x2048x2048.Idx → BitVec 32) = extui 32 (m ((c : Thread nD τ).loc main_arg3)) Facts₀.natLt_1_32 := by
  dsimp only [V, hostOps0]; after_results

/-- After the run the probabilities array is the specification of the arguments. -/
theorem probs_final (c : Dev nD) :
    (dats m 0 c).arrAt 5 cfg0.N = probs (m ((c : Thread nD τ).loc main_arg0)) (m ((c : Thread nD τ).loc main_arg1)) (m ((c : Thread nD τ).loc main_arg3)) := by
  rw [(dats m 0 c).arrAt_eq_of_cover 5 (probsW (V m c main_arg0) (V m c main_arg1) (V m c main_v0))
    (fun t _ => probs_block m c t) probs_cover]
  rw [V_main_arg0, V_main_arg1, mask_words]
  exact probsW_setWidth _ _ _

/-- After the run the output array is the specification of the arguments. -/
theorem out_final (c : Dev nD) :
    (dats m 0 c).arrAt 4 cfg0.N
      = attnOut (m ((c : Thread nD τ).loc main_arg0)) (m ((c : Thread nD τ).loc main_arg1)) (m ((c : Thread nD τ).loc main_arg2)) (m ((c : Thread nD τ).loc main_arg3)) := by
  rw [(dats m 0 c).arrAt_eq_of_cover 4 (attnOutW (V m c main_arg0) (V m c main_arg1) (V m c main_arg2) (V m c main_v0))
    (fun t _ => out_block m c t) out_cover]
  rw [V_main_arg0, V_main_arg1, V_main_arg2, mask_words]
  exact attnOutW_setWidth _ _ _ _

/-- THE KERNEL'S RUN: every weakly fair execution ends with the output and the probabilities at the specification of the
    arguments, and the arguments unchanged. -/
theorem run : θ_run defs (onTc (τ := τ) (main (F := Ideal))) ⟨m, fun _ => 0, ρ⟩ fun r => ∀ c : Dev nD,
      r.2.mem ((c : Thread nD τ).loc main_v1_0)
        = attnOut (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = probs (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out_final m c), (h c).2.1.trans (probs_final m c), (h c).2.2⟩)
    (Value.run_blocks m ρ)

end Cert.Attn.Arrays

end
-- ==== Proof.ScaleLaw.lean ====
/-
  The one algebraic law that joins the two programs.

  The kernel forms a row of logits as  ∑ d, (q d · c) · k d  with the constant c = 2⁻³ multiplied into the
  query before the contraction; the reference forms  (∑ d, q d · k d) / 8.  The two constants are exact
  powers of two, so nothing is rounded away: over the reals both are (1/8) · ∑ d, q d · k d.  On the
  extended reals a factor may not be moved across a sum when infinities are present, so the law is stated
  for rows whose entries are real numbers — which is what the finiteness of the inputs gives.
-/
import Idealize.ShloMosaic.PureOps.Ideal
import Idealize.ShloMosaic.PureOps.Ideal.Laws

noncomputable section

namespace Cert.Attn

open Idealize.ShloMosaic

/-- The pattern 0x41000000 denotes the real number 8. -/
theorem ofBits_eight : Ideal.ofBits .f32 0x41000000#32 = ((8 : ℝ) : EReal) := by
  simp [Ideal.ofBits, Ideal.ieee, -EReal.coe_mul]; norm_num

/-- The pattern 0x3E000000 denotes the real number 1/8. -/
theorem ofBits_eighth : Ideal.ofBits .f32 0x3E000000#32 = ((1 / 8 : ℝ) : EReal) := by
  simp [Ideal.ofBits, Ideal.ieee, -EReal.coe_mul]; norm_num

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For rows of real numbers, dividing the contraction by 8 is contracting with the query scaled by 1/8. -/
theorem div_eight_eq_scaled {n : ℕ} (q k : Fin n → EReal) (hq : ∀ d, ∃ r : ℝ, q d = (r : EReal))
    (hk : ∀ d, ∃ r : ℝ, k d = (r : EReal)) :
    Ideal.div (∑ d, q d * k d) (Ideal.ofBits .f32 0x41000000#32)
      = ∑ d, (q d * Ideal.ofBits .f32 0x3E000000#32) * k d := by
  choose qr hqr using hq
  choose kr hkr using hk
  rw [ofBits_eight, ofBits_eighth, Ideal.div_coe (by norm_num : (8 : ℝ) ≠ 0)]
  simp only [hqr, hkr, ← EReal.coe_mul, ← coe_finset_sum]
  congr 1
  rw [Finset.sum_mul]
  exact Finset.sum_congr rfl fun d _ => by ring

end Cert.Attn

end
-- ==== Proof.RefIsSpec.lean ====
/-
  The reference computes the specification.

  Read one operation at a time, the reference forms the contraction of a query row with a key row over the 64 features,
  divides it by 8, replaces it by the fill where the mask holds, takes each row's maximum, subtracts, exponentiates, sums
  along the row, divides, and contracts the probabilities with the values.  Two steps need an argument: the division by
  8 against the specification's query entries scaled by 1/8 — equal when the queries and keys are real numbers —, and the
  row maximum, which the reference takes as a fold from its starting value and then once more against that same
  value: a fold of `max` is already at least the value it starts from.
  Every stage is read at an index given by its coordinates: batch b, head h, query row q, key row k or feature d.
-/
import proofs.«139944_j77094662963310_2_alg».proof.Proof.Gen.ReferenceIdeal.Read
import proofs.«139944_j77094662963310_2_alg».proof.Proof.AttnSpec
import proofs.«139944_j77094662963310_2_alg».proof.Proof.ScaleLaw
import Idealize.ShloMosaic.PureOps.Ideal.Laws

noncomputable section

namespace Cert.Attn.Ref

open Idealize.ShloMosaic Idealize.ShloMosaic.ValueIdx Cert.ReferenceIdeal Cert.ReferenceIdeal.Read

/-- The logits stage is the specification's logit: the contraction divided by 8 is the contraction of the scaled query. -/
theorem logit_stage (x0 x1 : (⟨S4x16x2048x64, .f32⟩ : BufTy).Contents (Elt Ideal)) (x3 : (⟨S4x1x2048x2048, .i1⟩ : BufTy).Contents (Elt Ideal)) (hq : ∀ i, ∃ r : ℝ, x0 i = (r : EReal)) (hk : ∀ i, ∃ r : ℝ, x1 i = (r : EReal)) (b : Fin 4) (h : Fin 16) (q : Fin 2048) (k : Fin 2048) :
    val_main_v3 (F := Ideal) x0 x1 x3 (ix4 b h q k) = logit x0 x1 x3 b h q k := by
  rw [val_main_v3_apply, val_main_call0_v0_apply, val_main_call0_v1_apply, val_main_cst_0_apply, val_main_v2_apply,
    val_main_v0_apply, val_main_v1_apply, val_main_cst_apply]
  unfold logit
  show Scalar.select (x3 (idx_main_call0_v0 (ix4 b h q k))) maskFill
      (Ideal.div (∑ d : Fin 64, x0 (lidx_main_v0 (ix4 b h q k) d) * x1 (ridx_main_v0 (ix4 b h q k) d)) (Ideal.ofBits .f32 0x41000000#32)) = _
  rw [div_eight_eq_scaled (fun d : Fin 64 => x0 (lidx_main_v0 (ix4 b h q k) d)) (fun d : Fin 64 => x1 (ridx_main_v0 (ix4 b h q k) d))
    (fun d => hq _) (fun d => hk _)]
  have em : idx_main_call0_v0 (ix4 b h q k) = ix4 b (0 : Fin 1) q k := funext fun a => Fin.ext (by match a with | ⟨0, _⟩ => rfl | ⟨1, _⟩ => rfl | ⟨2, _⟩ => rfl | ⟨3, _⟩ => rfl)
  have el : ∀ d : Fin 64, lidx_main_v0 (ix4 b h q k) d = ix4 b h q d := fun d => funext fun a => Fin.ext (by match a with | ⟨0, _⟩ => rfl | ⟨1, _⟩ => rfl | ⟨2, _⟩ => rfl | ⟨3, _⟩ => rfl)
  have er : ∀ d : Fin 64, ridx_main_v0 (ix4 b h q k) d = ix4 b h k d := fun d => funext fun a => Fin.ext (by match a with | ⟨0, _⟩ => rfl | ⟨1, _⟩ => rfl | ⟨2, _⟩ => rfl | ⟨3, _⟩ => rfl)
  rw [em]
  refine congrArg (Scalar.select _ maskFill) (Finset.sum_congr rfl fun d _ => ?_)
  rw [el d, er d]

/-- The last axis of the logits is the one each row's maximum and sum run along. -/
theorem reduces_last : S4x16x2048x2048.Reduces [3] S4x16x2048 := by decide

/-- The index (b, h, q) with the coordinate `k` put back on the last axis is (b, h, q, k). -/
theorem lift_last (b : Fin 4) (h : Fin 16) (q : Fin 2048) (k : Fin 2048) : reduces_last.lift (ix3 b h q) k = ix4 b h q k := funext fun a => Fin.ext (by match a with | ⟨0, _⟩ => rfl | ⟨1, _⟩ => rfl | ⟨2, _⟩ => rfl | ⟨3, _⟩ => rfl)

/-- The reference's row maximum before it is taken against the starting value once more: the fold along the row. -/
theorem rowfold_stage (x0 x1 : (⟨S4x16x2048x64, .f32⟩ : BufTy).Contents (Elt Ideal)) (x3 : (⟨S4x1x2048x2048, .i1⟩ : BufTy).Contents (Elt Ideal)) (b : Fin 4) (h : Fin 16) (q : Fin 2048) :
    val_main_v4 (F := Ideal) x0 x1 x3 (ix3 b h q)
      = (Finset.univ : Finset (Fin 2048)).fold (FloatOps.maximumf (F := Ideal) (φ := .f32)) maxInit
          (fun k => val_main_v3 (F := Ideal) x0 x1 x3 (ix4 b h q k)) := by
  unfold val_main_v4
  refine (Host.reduce_eq_fold_single (FloatOps.maximumf (F := Ideal) (φ := .f32)) (val_main_v3 (F := Ideal) x0 x1 x3) (val_main_cst_1 (F := Ideal))
    Gen.reducesTo_S4x16x2048x2048_S4x16x2048_d3 reduces_last Gen.h_S_ (ix3 b h q)).trans ?_
  refine congrArg (fun f => (Finset.univ : Finset (Fin 2048)).fold (FloatOps.maximumf (F := Ideal) (φ := .f32)) maxInit f) (funext fun k => ?_)
  show val_main_v3 (F := Ideal) x0 x1 x3 (reduces_last.lift (ix3 b h q) k) = _
  rw [lift_last b h q k]

/-- The row-maximum stage: the fold from the starting value, taken once more against the starting value, is the fold. -/
theorem rowmax_stage (x0 x1 : (⟨S4x16x2048x64, .f32⟩ : BufTy).Contents (Elt Ideal)) (x3 : (⟨S4x1x2048x2048, .i1⟩ : BufTy).Contents (Elt Ideal)) (hq : ∀ i, ∃ r : ℝ, x0 i = (r : EReal)) (hk : ∀ i, ∃ r : ℝ, x1 i = (r : EReal)) (b : Fin 4) (h : Fin 16) (q : Fin 2048) :
    val_main_v6 (F := Ideal) x0 x1 x3 (ix3 b h q) = rowMax (fun k : Fin 2048 => logit x0 x1 x3 b h q k) := by
  rw [val_main_v6_apply, val_main_v5_apply, val_main_cst_2_apply, rowfold_stage x0 x1 x3 b h q]
  show max maxInit ((Finset.univ : Finset (Fin 2048)).fold max maxInit (fun k => val_main_v3 (F := Ideal) x0 x1 x3 (ix4 b h q k))) = _
  rw [max_eq_right ((Finset.le_fold_max _).2 (Or.inl le_rfl))]
  unfold rowMax
  exact congrArg (fun f => (Finset.univ : Finset (Fin 2048)).fold max maxInit f)
    (funext fun k => logit_stage x0 x1 x3 hq hk b h q k)

/-- The exponentials stage. -/
theorem exp_stage (x0 x1 : (⟨S4x16x2048x64, .f32⟩ : BufTy).Contents (Elt Ideal)) (x3 : (⟨S4x1x2048x2048, .i1⟩ : BufTy).Contents (Elt Ideal)) (hq : ∀ i, ∃ r : ℝ, x0 i = (r : EReal)) (hk : ∀ i, ∃ r : ℝ, x1 i = (r : EReal)) (b : Fin 4) (h : Fin 16) (q : Fin 2048) (k : Fin 2048) :
    val_main_v10 (F := Ideal) x0 x1 x3 (ix4 b h q k)
      = Ideal.exp (logit x0 x1 x3 b h q k - rowMax (fun k' : Fin 2048 => logit x0 x1 x3 b h q k')) := by
  rw [val_main_v10_apply, val_main_v9_apply, val_main_v8_apply, val_main_v7_apply, logit_stage x0 x1 x3 hq hk b h q k]
  have ej : idx_main_v7 (idx_main_v8 (ix4 b h q k)) = ix3 b h q := funext fun a => Fin.ext (by match a with | ⟨0, _⟩ => rfl | ⟨1, _⟩ => rfl | ⟨2, _⟩ => rfl)
  rw [ej, rowmax_stage x0 x1 x3 hq hk b h q]
  rfl

/-- The probabilities stage is the specification's probabilities. -/
theorem probs_stage (x0 x1 : (⟨S4x16x2048x64, .f32⟩ : BufTy).Contents (Elt Ideal)) (x3 : (⟨S4x1x2048x2048, .i1⟩ : BufTy).Contents (Elt Ideal)) (hq : ∀ i, ∃ r : ℝ, x0 i = (r : EReal)) (hk : ∀ i, ∃ r : ℝ, x1 i = (r : EReal)) :
    val_main_v14 (F := Ideal) x0 x1 x3 = probs x0 x1 x3 := by
  funext i
  obtain ⟨b, h, q, k, rfl⟩ : ∃ (b : Fin 4) (h : Fin 16) (q k : Fin 2048), i = ix4 b h q k := ⟨i 0, i 1, i 2, i 3, eq_ix4 i⟩
  show val_main_v14 (F := Ideal) x0 x1 x3 (ix4 b h q k) = rowSoftmax (fun k' : Fin 2048 => logit x0 x1 x3 b h q k') k
  rw [val_main_v14_apply, val_main_v13_apply, val_main_v12_apply, val_main_v11_apply, val_main_cst_3_apply,
    exp_stage x0 x1 x3 hq hk b h q k]
  unfold rowSoftmax
  show Ideal.div _ (Ideal.ofBits .f32 0x00000000#32 + _) = _
  rw [Ideal.ofBits_zero_f32, zero_add]
  refine congrArg (Ideal.div _) (Finset.sum_congr rfl fun k' _ => ?_)
  have e11 : idx_main_v11 (idx_main_v12 (idx_main_v13 (ix4 b h q k))) k' = ix4 b h q k' := funext fun a => Fin.ext (by match a with | ⟨0, _⟩ => rfl | ⟨1, _⟩ => rfl | ⟨2, _⟩ => rfl | ⟨3, _⟩ => rfl)
  rw [e11]
  exact exp_stage x0 x1 x3 hq hk b h q k'

/-- The output stage is the specification's output. -/
theorem out_stage (x0 x1 : (⟨S4x16x2048x64, .f32⟩ : BufTy).Contents (Elt Ideal)) (x3 : (⟨S4x1x2048x2048, .i1⟩ : BufTy).Contents (Elt Ideal)) (x2 : (⟨S4x16x2048x64, .f32⟩ : BufTy).Contents (Elt Ideal)) (hq : ∀ i, ∃ r : ℝ, x0 i = (r : EReal)) (hk : ∀ i, ∃ r : ℝ, x1 i = (r : EReal)) :
    val_main_v15 (F := Ideal) x0 x1 x2 x3 = attnOut x0 x1 x2 x3 := by
  funext i
  obtain ⟨b, h, q, d, rfl⟩ : ∃ (b : Fin 4) (h : Fin 16) (q : Fin 2048) (d : Fin 64), i = ix4 b h q d := ⟨i 0, i 1, i 2, i 3, eq_ix4 i⟩
  show val_main_v15 (F := Ideal) x0 x1 x2 x3 (ix4 b h q d) = ∑ k : Fin 2048, probs x0 x1 x3 (ix4 b h q k) * x2 (ix4 b h k d)
  rw [val_main_v15_apply, probs_stage x0 x1 x3 hq hk]
  refine Finset.sum_congr rfl fun k _ => ?_
  have el : lidx_main_v15 (ix4 b h q d) k = ix4 b h q k := funext fun a => Fin.ext (by match a with | ⟨0, _⟩ => rfl | ⟨1, _⟩ => rfl | ⟨2, _⟩ => rfl | ⟨3, _⟩ => rfl)
  have er : ridx_main_v15 (ix4 b h q d) k = ix4 b h k d := funext fun a => Fin.ext (by match a with | ⟨0, _⟩ => rfl | ⟨1, _⟩ => rfl | ⟨2, _⟩ => rfl | ⟨3, _⟩ => rfl)
  rw [el, er]

end Cert.Attn.Ref

end
-- ==== Proof.FiniteInputs.lean ====
/-
  What the precondition gives: every query entry and every key entry is a real number.

  The precondition says, of each float argument, that the absolute value of every entry compares below +∞, all these
  comparisons conjoined.  An extended real whose absolute value is below +∞ is neither infinity, so it is a real number.
-/
import proofs.«139944_j77094662963310_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Attn.Finite

open Idealize.ShloMosaic Cert.Pre_finite_inputs

/-- The pattern 0x7F800000 denotes +∞. -/
theorem ofBits_inf : Ideal.ofBits .f32 0x7F800000#32 = ⊤ := by simp [Ideal.ofBits, Ideal.ieee]

/-- An extended real whose absolute value compares below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The queries and the keys are arrays of real numbers wherever the precondition holds. -/
theorem real_of_pre (a0 a1 a2 : FVec Ideal S4x16x2048x64 .f32) (a3 : IVec S4x1x2048x2048 1)
    (hpre : fn (F := Ideal) a0 a1 a2 a3 = fun _ => 1#1) :
    (∀ i, ∃ r : ℝ, a0 i = (r : EReal)) ∧ (∀ i, ∃ r : ℝ, a1 i = (r : EReal)) := by
  have h0 := congrFun hpre ValueIdx.ix0
  dsimp only [fn] at h0
  obtain ⟨h01, -⟩ := IntOp.andi_eq_one.1 h0
  obtain ⟨hA, hB⟩ := IntOp.andi_eq_one.1 h01
  haveI : Subsingleton S_.Idx := ⟨fun a b => funext fun d => d.elim0⟩
  refine ⟨fun i => ?_, fun i => ?_⟩
  · have e := Host.reduce_andi_all _ _ _ _ _ hA i
    refine real_of_abs_lt_top (a0 i) ?_
    rw [← ofBits_inf]
    exact e
  · have e := Host.reduce_andi_all _ _ _ _ _ hB i
    refine real_of_abs_lt_top (a1 i) ?_
    rw [← ofBits_inf]
    exact e

end Cert.Attn.Finite

end
-- ==== Proof.lean ====
/-
  Masked, scaled dot-product attention computed block by block against the same attention computed whole.

  The kernel works through a 4 · 16 · 4 grid: at each point it holds 512 query rows of one batch and head, all 2048 key and
  value rows of that batch and head and the matching 512 rows of the mask, and writes 512 rows of the probabilities and of
  the output.  The reference forms all the logits, masks them, takes the softmax along each row and contracts with the
  values.  At the exact values both results are one function of the arguments, index by index (Proof/AttnSpec.lean):

    • the kernel multiplies each query entry by 2⁻³ before the contraction over the 64 features and the reference divides
      the contraction by 8: equal for queries and keys that are real numbers, which the precondition gives
      (Proof/ScaleLaw.lean, Proof/FiniteInputs.lean);
    • the row maximum, the exponentials, the row sum and the quotient are the same operations on both sides, the
      reference's extra maximum against the fold's starting value changing nothing (Proof/RefIsSpec.lean);
    • a row of probabilities depends on its own query row, all key rows and its own mask row, all of which a grid point
      holds, so each block the kernel writes is a piece of the whole result, and the blocks tile it
      (Proof/BlockSoftmax.lean … Proof/KernelRun.lean).

  Each program also terminates without a fault and leaves its arguments unchanged; the kernel at the exact values is the
  kernel's own text read there, no operation rewritten.
-/
import proofs.«139944_j77094662963310_2_alg».proof.Defs
import proofs.«139944_j77094662963310_2_alg».proof.Proof.Gen.Kernel
import proofs.«139944_j77094662963310_2_alg».proof.Proof.Gen.Kernel.Skeleton
import proofs.«139944_j77094662963310_2_alg».proof.Proof.Gen.Kernel.Launch
import proofs.«139944_j77094662963310_2_alg».proof.Proof.Gen.Kernel.Points
import proofs.«139944_j77094662963310_2_alg».proof.Proof.Gen.Kernel.Frame
import proofs.«139944_j77094662963310_2_alg».proof.Proof.Gen.KernelIdeal
import proofs.«139944_j77094662963310_2_alg».proof.Proof.Gen.KernelIdeal.Skeleton
import proofs.«139944_j77094662963310_2_alg».proof.Proof.Gen.KernelIdeal.Launch
import proofs.«139944_j77094662963310_2_alg».proof.Proof.Gen.KernelIdeal.Points
import proofs.«139944_j77094662963310_2_alg».proof.Proof.Gen.KernelIdeal.Frame
import proofs.«139944_j77094662963310_2_alg».proof.Proof.Gen.ReferenceIdeal
import proofs.«139944_j77094662963310_2_alg».proof.Proof.Gen.Pre_finite_inputs
import proofs.«139944_j77094662963310_2_alg».proof.Proof.Gen.KernelIdeal.Value
import proofs.«139944_j77094662963310_2_alg».proof.Proof.Gen.ReferenceIdeal.Run
import proofs.«139944_j77094662963310_2_alg».proof.Proof.Gen.ReferenceIdeal.Read
import proofs.«139944_j77094662963310_2_alg».proof.Proof.KernelRun
import proofs.«139944_j77094662963310_2_alg».proof.Proof.RefIsSpec
import proofs.«139944_j77094662963310_2_alg».proof.Proof.FiniteInputs
import Idealize.ShloMosaic.Adequacy
import Idealize.ShloMosaic.Init

noncomputable section

namespace Cert.Proof

open Idealize.ShloMosaic Idealize.SL.Sem Cert.Attn

/-- The kernel as printed runs to the end without a fault and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- At the exact values the kernel and the reference, run from memories that agree on the arguments, end with the same
    output and the same probabilities: both are the specification of the arguments. -/
theorem algebraic : Cert.algebraic_KernelIdeal_ReferenceIdeal := by
  intro m ρ m' ρ' hpre hagree
  have hreal := fun c : Dev Cert.KernelIdeal.nD => Finite.real_of_pre _ _ _ _ (hpre c)
  refine ⟨fun c => attnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => probs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v15_eq _ _ _ _).trans (Ref.out_stage _ _ _ _ (hreal c).1 (hreal c).2)
  · rw [(hagree c).1, (hagree c).2.1, (hagree c).2.2.2]
    exact (Cert.ReferenceIdeal.Read.val_main_v14_eq _ _ _).trans (Ref.probs_stage _ _ _ (hreal c).1 (hreal c).2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
